-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel

variable [Facts]

def fn {F : FTy → Type} [FloatOps F] (main_arg0 : FVec F S262144x256 .f32) (main_arg1 : FVec F S262144x256 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S262144x256 .f32 := Host.absf main_arg1
  let main_cst_0 : FVec F S_ .f32 := constant S_ .f32 0x7F800000#32
  let main_v5 : FVec F S262144x256 .f32 := broadcastInDim S262144x256 ![] bcast_S_S262144x256 main_cst_0
  let main_v6 : IVec S262144x256 1 := cmpf .olt main_v4 main_v5
  let main_c_1 : IVec S_ 1 := constantI S_ 1 1#1
  let main_v7 : IVec S_ 1 := (fun x v => Host.reduce IntOp.andi x v reducesTo_S262144x256_S_d0_1 h_S_) main_v6 main_c_1
  let main_v8 : IVec S_ 1 := andi main_v3 main_v7
  main_v8
-- ==== Kernel.lean ====
abbrev S262144x256 : Shape := ⟨2, ![262144, 256]⟩
abbrev S1x1 : Shape := ⟨2, ![1, 1]⟩
abbrev S4096x256 : Shape := ⟨2, ![4096, 256]⟩
abbrev S4096 : Shape := ⟨1, ![4096]⟩
abbrev S4096x1 : Shape := ⟨2, ![4096, 1]⟩
abbrev S1 : Shape := ⟨1, ![1]⟩
abbrev S_ : Shape := ⟨0, ![]⟩

abbrev nBuf : Space → Nat
  | .hbm => 4
  | .vmem => 6
  | .smem => 0
  | _ => 0

abbrev bufTy : (tb : Table) → Fin (tcTables nBuf tb) → BufTy
  | .hbm, ⟨0, _⟩ => ⟨S262144x256, .f32⟩
  | .hbm, ⟨1, _⟩ => ⟨S262144x256, .f32⟩
  | .hbm, ⟨2, _⟩ => ⟨S1x1, .f32⟩
  | .hbm, ⟨3, _⟩ => ⟨S_, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S1x1, .f32⟩
  | .local _ .vmem, ⟨5, _⟩ => ⟨S1x1, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v25 : BitVec 1 := Scalar.cmpi .eq arg0 c63_i32
  let v26 : BitVec 32 := Scalar.extui v25
  let c0_i32_12 : BitVec 32 := 0#32
  let v27 : BitVec 1 := Scalar.cmpi .ne v26 c0_i32_12
  v27

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x256_S4096x256_0_0 : ∀ a, (![0, 0] : Fin 2 → Nat) a + S4096x256.size a ≤ S4096x256.size a
  h_S4096x256 : 0 < S4096x256.numel
  reduces_S4096x256_S4096 : S4096x256.Reduces [1] S4096
  shapeCasts_S4096_S4096x1 : S4096.ShapeCasts S4096x1
  reduces_S4096x1_S1 : S4096x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S262144x256.size a
  hwx0_0 : ∀ i : grid0.Coords, EltTy.bits .f32 = 32 ∨ (Rect.block (s := S262144x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S262144x256.size a
  hwx0_1 : ∀ i : grid0.Coords, EltTy.bits .f32 = 32 ∨ (Rect.block (s := S262144x256) S4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S262144x256 : Shape := ⟨2, ![262144, 256]⟩
abbrev S_ : Shape := ⟨0, ![]⟩
abbrev S262144 : Shape := ⟨1, ![262144]⟩

abbrev nBuf : Space → Nat
  | .hbm => 23
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S262144x256, .f32⟩
  | .hbm, ⟨2, _⟩ => ⟨S262144x256, .f32⟩
  | .hbm, ⟨3, _⟩ => ⟨S262144x256, .f32⟩
  | .hbm, ⟨4, _⟩ => ⟨S_, .f32⟩
  | .hbm, ⟨5, _⟩ => ⟨S262144, .f32⟩
  | .hbm, ⟨6, _⟩ => ⟨S262144, .f32⟩
  | .hbm, ⟨7, _⟩ => ⟨S_, .f32⟩
  | .hbm, ⟨8, _⟩ => ⟨S262144, .f32⟩
  | .hbm, ⟨9, _⟩ => ⟨S262144, .f32⟩
  | .hbm, ⟨10, _⟩ => ⟨S_, .f32⟩
  | .hbm, ⟨11, _⟩ => ⟨S262144, .f32⟩
  | .hbm, ⟨12, _⟩ => ⟨S262144, .i1⟩
  | .hbm, ⟨13, _⟩ => ⟨S262144, .f32⟩
  | .hbm, ⟨14, _⟩ => ⟨S_, .f32⟩
  | .hbm, ⟨15, _⟩ => ⟨S262144, .f32⟩
  | .hbm, ⟨16, _⟩ => ⟨S262144, .f32⟩
  | .hbm, ⟨17, _⟩ => ⟨S262144, .f32⟩
  | .hbm, ⟨18, _⟩ => ⟨S262144, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  reducesTo_S262144x256_S262144_d1 : S262144x256.ReducesTo [1] S262144
  h_S_ : 0 < S_.numel
  bcast_S_S262144 : S_.BroadcastsInDim S262144 (![] : Fin 0 → Fin S262144.rank)
  reducesTo_S262144_S_d0 : S262144.ReducesTo [0] S_

variable [Facts₀]

class Facts : Prop extends Facts₀ where

variable [Facts]
-- ==== Proof.CarriedPieces.lean ====
/-
  What one grid point leaves behind, as payloads.

  The kernel keeps a 1×1 running total in a scratch buffer that survives from one grid point to the next.
  At every point the body adds the point's block penalty to it (the payload `k0_pay2`, a function of the two
  input blocks and of the total found in the scratch); the first point first resets the scratch to zero
  (`k0_pay1`), so there the total found is that zero; the last point, after adding, also divides the total
  by the number of rows and stores the quotient into the output block (`k0_pay3`).

  The generated run states what each control case leaves as lists of written pieces.  Each list here is a
  single whole-buffer store (after the reset, in the first case), so reading it back gives the payload itself.
  Everything in this module holds at any float instance.
-/
import proofs.«104738_j25297357373517_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Loss

open Cert.KernelIdeal Cert.KernelIdeal.Gen

variable {F : FTy → Type} [FloatOps F]

/-- The offset of every load and store of the body: the origin of its buffer. -/
theorem origin2 : (![0, 0] : Fin 2 → Nat) = fun _ => 0 := funext fun a => by fin_cases a <;> rfl

/-- A middle point (neither first nor last) leaves in the scratch the total it found plus its block penalty. -/
theorem carried_mid (c : Dev nD) (i : grid0.Coords) (a1 : Memref sig .tc .vmem S4096x256 .f32) (h1 : a1.IsWhole)
    (a2 : Memref sig .tc .vmem S4096x256 .f32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 x1 : Vec F S4096x256 .f32) (xs0 : Vec F S1x1 .f32) :
    sout0_B_0 c i a1 h1 a2 h2 a3 h3 a4 h4 hc0 hc1 x0 x1 xs0 = k0_pay2 x0 x1 xs0 := by
  unfold sout0_B_0
  rw [View.read_writes_eq_canon _ _ _ (scover0_B_0 c i a1 h1 a2 h2 a3 h3 a4 h4 hc0 hc1 x0 x1 xs0)]
  unfold kernelRun0_B
  dsimp only
  rw [View.canon_unit_zero origin2]
  simp only [View.readAt_eq_ld, h1.read_unread, h2.read_unread, h4.read_unread,
    View.ld_unit_zero (S := S4096x256) origin2, View.ld_unit_zero (S := S1x1) origin2]

/-- The last point leaves the same in the scratch: the total it found plus its block penalty. -/
theorem carried_last (c : Dev nD) (i : grid0.Coords) (a1 : Memref sig .tc .vmem S4096x256 .f32) (h1 : a1.IsWhole)
    (a2 : Memref sig .tc .vmem S4096x256 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S4096x256 .f32) (xs0 : Vec F S1x1 .f32) :
    sout0_C_0 c i a1 h1 a2 h2 a3 h3 a4 h4 hc0 hc1 x0 x1 xs0 = k0_pay2 x0 x1 xs0 := by
  unfold sout0_C_0
  rw [View.read_writes_eq_canon _ _ _ (scover0_C_0 c i a1 h1 a2 h2 a3 h3 a4 h4 hc0 hc1 x0 x1 xs0)]
  unfold kernelRun0_C
  dsimp only
  sl_unfold_words
  rw [View.canon_unit_zero (S := S1x1) origin2]
  simp only [View.readAt_eq_ld, h1.read_unread, h2.read_unread, h4.read_unread,
    View.ld_unit_zero (S := S4096x256) origin2, View.ld_unit_zero (S := S1x1) origin2]

/-- The last point stores into the output block the quotient of that new total by the number of rows. -/
theorem stored_last (c : Dev nD) (i : grid0.Coords) (a1 : Memref sig .tc .vmem S4096x256 .f32) (h1 : a1.IsWhole)
    (a2 : Memref sig .tc .vmem S4096x256 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S4096x256 .f32) (xs0 : Vec F S1x1 .f32) :
    out0_C_2 c i a1 h1 a2 h2 a3 h3 a4 h4 hc0 hc1 x0 x1 xs0 = k0_pay3 (k0_pay2 x0 x1 xs0) := by
  unfold out0_C_2
  rw [View.read_writes_eq_canon _ _ _ (cover0_C_2 c i a1 h1 a2 h2 a3 h3 a4 h4 hc0 hc1 x0 x1 xs0)]
  unfold kernelRun0_C
  dsimp only
  sl_unfold_words
  rw [View.canon_unit_zero (S := S1x1) origin2, View.readCov_unit_zero (S := S1x1) _ origin2]
  simp only [View.readAt_eq_ld, h1.read_unread, h2.read_unread, h4.read_unread,
    View.ld_unit_zero (S := S4096x256) origin2, View.ld_unit_zero (S := S1x1) origin2]

/-- The first point resets the scratch and then adds: it leaves the zero block plus its block penalty. -/
theorem carried_first (c : Dev nD) (i : grid0.Coords) (a1 : Memref sig .tc .vmem S4096x256 .f32) (h1 : a1.IsWhole)
    (a2 : Memref sig .tc .vmem S4096x256 .f32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 x1 : Vec F S4096x256 .f32) :
    sout0_A_0 c i a1 h1 a2 h2 a3 h3 a4 h4 hc0 hc1 x0 x1 = k0_pay2 x0 x1 k0_pay1 := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) origin2, View.readCov_unit_zero (S := S1x1) _ origin2]
  simp only [View.readAt_eq_ld, h1.read_unread, h2.read_unread,
    View.ld_unit_zero (S := S4096x256) origin2]

end Cert.KernelIdeal.Loss

end
-- ==== Proof.RunningTotal.lean ====
/-
  The running total across the grid.

  After grid point `n` the scratch buffer holds `total n`: at the first point the zero block plus that
  point's block penalty, at every later point the previous total plus the point's block penalty.  This is
  proved by induction on the point — never by listing the 64 points — from what each control case leaves
  (the first case resets and adds; the middle and last cases add).  The output block is stored at the last
  point only, and holds the quotient of the total that same point leaves.  All of this holds at any float
  instance: the penalty itself is still the unopened payload `k0_pay2`.
-/
import proofs.«104738_j25297357373517_1_alg».proof.Proof.CarriedPieces

noncomputable section

open Idealize.ShloMosaic Idealize.ShloMosaic.TcCoe Idealize.SL.Sem
open Idealize.ShloMosaic.Pipeline (Dat)

namespace Cert.KernelIdeal.Loss

open Cert.KernelIdeal Cert.KernelIdeal.Gen

variable {F : FTy → Type} [FloatOps F]
variable (m : (ℓ : Loc nD τ sig) → Buf (Elt F) ℓ)

/-- The total after point `n`: the accumulate step `k0_pay2` iterated over the input blocks of points `0 … n`,
    from the zero block the first point stores. -/
def total (c : Dev nD) : (n : ℕ) → n < cfg0.N → Vec F S1x1 .f32
  | 0, h => k0_pay2 (iblk m c 0 ⟨0, h⟩) (iblk m c 1 ⟨0, h⟩) k0_pay1
  | n + 1, h => k0_pay2 (iblk m c 0 ⟨n + 1, h⟩) (iblk m c 1 ⟨n + 1, h⟩) (total c n (Nat.lt_of_succ_lt h))

/-- What the scratch holds after point `n` is the running total, by induction on the point. -/
theorem carried_eq (c : Dev nD) : ∀ (n : ℕ) (h : n < cfg0.N), (outsAt0 m c n h).2 = total m c n h
  | 0, h => by
    have e := outsAt0_A m c ⟨0, h⟩ rfl (by show ¬(0 % 64 = 63); decide)
    rw [show outsAt0 m c 0 h = outsAt0 m c (⟨0, h⟩ : Fin cfg0.N).val (⟨0, h⟩ : Fin cfg0.N).isLt from rfl, e]
    dsimp only
    exact carried_first (F := F) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) scM0_0 (Memref.isWhole_whole _) _ _ (iblk m c 0 ⟨0, h⟩) (iblk m c 1 ⟨0, h⟩)
  | n + 1, h => by
    have hN : cfg0.N = 64 := N_0
    have ih := carried_eq c n (Nat.lt_of_succ_lt h)
    have h0 : ¬(⟨n + 1, h⟩ : Fin cfg0.N).val % 64 = 0 := by dsimp only; omega
    rw [show outsAt0 m c (n + 1) h = outsAt0 m c (⟨n + 1, h⟩ : Fin cfg0.N).val (⟨n + 1, h⟩ : Fin cfg0.N).isLt from rfl]
    have hc0 : ¬cond0_0 (grid0.coords (⟨n + 1, h⟩ : Fin cfg0.N)) := fun hh => h0 ((hcond0_0 ⟨n + 1, h⟩).mp hh)
    by_cases h1 : (⟨n + 1, h⟩ : Fin cfg0.N).val % 64 = 63
    · have hc1 : cond0_1 (grid0.coords (⟨n + 1, h⟩ : Fin cfg0.N)) := (hcond0_1 ⟨n + 1, h⟩).mpr h1
      rw [outsAt0_C m c ⟨n + 1, h⟩ h0 h1]
      dsimp only
      exact (carried_last (F := F) c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) scM0_0 (Memref.isWhole_whole _) hc0 hc1
        (iblk m c 0 ⟨n + 1, h⟩) (iblk m c 1 ⟨n + 1, h⟩) (outsAt0 m c n (Nat.lt_of_succ_lt h)).2).trans
        (congrArg (k0_pay2 (iblk m c 0 ⟨n + 1, h⟩) (iblk m c 1 ⟨n + 1, h⟩)) ih)
    · have hc1 : ¬cond0_1 (grid0.coords (⟨n + 1, h⟩ : Fin cfg0.N)) := fun hh => h1 ((hcond0_1 ⟨n + 1, h⟩).mp hh)
      rw [outsAt0_B m c ⟨n + 1, h⟩ h0 h1]
      dsimp only
      exact (carried_mid (F := F) c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) scM0_0 (Memref.isWhole_whole _) hc0 hc1
        (iblk m c 0 ⟨n + 1, h⟩) (iblk m c 1 ⟨n + 1, h⟩) (outsAt0 m c n (Nat.lt_of_succ_lt h)).2).trans
        (congrArg (k0_pay2 (iblk m c 0 ⟨n + 1, h⟩) (iblk m c 1 ⟨n + 1, h⟩)) ih)

/-- At the last point the output block holds the quotient of the total that point leaves in the scratch. -/
theorem stored_eq (c : Dev nD) (t : Fin cfg0.N) (h0 : ¬t.val % 64 = 0) (h1 : t.val % 64 = 63) :
    (outsAt0 m c t.val t.isLt).1 = k0_pay3 (total m c t.val t.isLt) := by
  have hc0 : ¬cond0_0 (grid0.coords t) := fun h => h0 ((hcond0_0 t).mp h)
  have hc1 : cond0_1 (grid0.coords t) := (hcond0_1 t).mpr h1
  rw [← carried_eq m c t.val t.isLt, outsAt0_C m c t h0 h1]
  dsimp only
  exact (stored_last (F := F) c (grid0.coords t) (ms0_0 t) (hs0_0 t) (ms0_1 t) (hs0_1 t) (ms0_2 t) (hs0_2 t) scM0_0
      (Memref.isWhole_whole _) hc0 hc1 (iblk m c 0 t) (iblk m c 1 t)
      (outsAt0 m c (t.val - 1) (Nat.lt_of_le_of_lt (Nat.sub_le _ _) t.isLt)).2).trans
    (congrArg k0_pay3 (carried_last (F := F) c (grid0.coords t) (ms0_0 t) (hs0_0 t) (ms0_1 t) (hs0_1 t) (ms0_2 t)
      (hs0_2 t) scM0_0 (Memref.isWhole_whole _) hc0 hc1 (iblk m c 0 t) (iblk m c 1 t)
      (outsAt0 m c (t.val - 1) (Nat.lt_of_le_of_lt (Nat.sub_le _ _) t.isLt)).2).symm)

end Cert.KernelIdeal.Loss

end
-- ==== Proof.OutputArray.lean ====
/-
  From the running total to the program's result.

  The output window is a single 1×1 block that is written back to its array once, after the last grid
  point, where it holds the quotient of the final total by the number of rows.  That one block is the whole
  array, so the array ends holding exactly that quotient.  The program then reshapes the 1×1 array to a
  scalar, which is its result.  The argument arrays are inputs of the region and end as they began.
  All of this holds at any float instance.
-/
import proofs.«104738_j25297357373517_1_alg».proof.Proof.RunningTotal
import Idealize.ShloMosaic.Lib.StableHlo.Run

noncomputable section

open Idealize.ShloMosaic Idealize.ShloMosaic.TcCoe Idealize.SL.Sem
open Idealize.ShloMosaic.Pipeline (Dat)

namespace Cert.KernelIdeal.Loss

open Cert.KernelIdeal Cert.KernelIdeal.Gen

variable {F : FTy → Type} [FloatOps F]
variable (m : (ℓ : Loc nD τ sig) → Buf (Elt F) ℓ) (ρ : Dev nD → PrngReg)

/-- The last grid point. -/
abbrev lastPt : Fin cfg0.N := ⟨63, by rw [show cfg0.N = 64 from N_0]; decide⟩

/-- What the 1×1 output array ends holding: the final total divided by the number of rows. -/
abbrev meanBlock (c : Dev nD) : Buf (Elt F) ((c : Thread nD τ).loc main_v0) :=
  k0_pay3 (total m c lastPt.val lastPt.isLt)

/-- The only write-back happens after the last point, and writes that quotient: the block at offsets (0, 0) of a
    1×1 array, read back, is the array. -/
theorem flushed_eq (c : Dev nD) (t : Fin cfg0.N) (hf : (cfg0.win 2).flush t = true) :
    (dats m 0 c).flushed 2 t = ((cfg0.win 2).blk t).view.read (Elt F) (meanBlock m c) := by
  have hN : cfg0.N = 64 := N_0
  have h63 : t.val = 63 := by have := (flush0_2 t).mp hf; have := t.isLt; omega
  obtain rfl : t = lastPt := Fin.ext h63
  show (cfg0.win 2).cut (grid0.coords lastPt) ((dats m 0 c).after 2 lastPt) = _
  rw [after0_2, stored_eq m c lastPt (by decide) (by decide)]
  have hoff : (fun a => win0_2.index lastPt a * main_v0.ty.shape.size a) = fun _ => 0 :=
    funext fun a => by fin_cases a <;> decide
  exact (Memref.read_access_unit_zero (Elt F) main_v0 hoff (fun a => by rw [congrFun hoff a]; simp) (meanBlock m c)).symm

/-- That block covers the array, so the array ends holding the quotient. -/
theorem array_eq (c : Dev nD) : (dats m 0 c).arrAt 2 cfg0.N = meanBlock m c :=
  (dats m 0 c).arrAt_eq_of_cover 2 (meanBlock m c) (flushed_eq m c) fun i =>
    ⟨lastPt, (flush0_2 lastPt).mpr rfl, by
      show i ∈ ((View.whole main_v0).slice (win0_2.rect lastPt)).set
      rw [View.set_slice_whole, Rect.mem_set_unit]
      intro a
      rw [show win0_2.index lastPt a * win0_2.size a = 0 from by fin_cases a <;> decide +kernel,
        show win0_2.xsize (grid0.coords lastPt) a = main_v0.ty.shape.size a from by fin_cases a <;> decide +kernel]
      exact ⟨Nat.zero_le _, by rw [Nat.zero_add]; exact (i a).isLt⟩⟩

/-- The program's result is the reshape of that array to a scalar. -/
theorem tail_eq (c : Dev nD) :
    Pipeline.afterTail₀ cfgs (dats m) 0 (V0 m) [hostOps1] c main_v1
      = shapeCast S_ (meanBlock m c) shapeCasts_S1x1_S_ := by
  unfold Pipeline.afterTail₀
  show StableHlo.after hostOps1 _ (Proc.devRef .tc main_v1) = _
  after_results
  have e : Pipeline.withArrays (cfgs 0).spec c (V0 m c) (fun w => (dats m 0 c).arrAt w (cfgs 0).N)
      (Proc.devRef .tc main_v0) = meanBlock m c :=
    (Pipeline.withArrays_arr spec0 launch0.win.arr_inj c _ _ 2).trans (array_eq m c)
  exact congrArg (fun v => shapeCast S_ v shapeCasts_S1x1_S_) e

/-- The program's run, read: every weakly fair execution terminates with the result at the reshaped quotient and
    both argument arrays as they were. -/
theorem run : θ_run defs (onTc (τ := τ) (main (F := F))) ⟨m, fun _ => 0, ρ⟩ fun r => ∀ c : Dev nD,
      r.2.mem ((c : Thread nD τ).loc main_v1) = shapeCast S_ (meanBlock m c) shapeCasts_S1x1_S_
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v1 (by decide)).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.Loss

end
-- ==== Proof.LibBlockSum.lean ====
/-
  Two regrouping laws, stated generally.

  (1) A sum taken block by block.  Given `a · b` terms indexed by the natural numbers below `a · b`, cut them
  into `a` blocks of `b` consecutive terms, so that term `r` of block `t` is term `b·t + r` of the whole.
  In any commutative additive monoid the sum of the `a` block sums is the sum of all the terms.  On the
  extended reals this needs no finiteness assumption: their addition is commutative and associative
  (the sum of `+∞` and `−∞` is a fixed value whatever the order).

  (2) Scaling a square.  On the extended reals `c · (d · d) = (c · d) · d` for every `c` and `d`, infinite ones
  included: multiplication there is associative.
-/
import Mathlib.Data.EReal.Inv
import Mathlib.Algebra.BigOperators.Fin
import Mathlib.Logic.Equiv.Fin.Basic

namespace Cert.LibBlockSum

/-- The sum of `a` block sums of `b` consecutive terms is the sum of all `a · b` terms:
    `∑_{t < a} ∑_{r < b} g (b·t + r) = ∑_{q < a·b} g q`. -/
theorem sum_blocks {M : Type*} [AddCommMonoid M] (a b : ℕ) (g : ℕ → M) :
    ∑ t ∈ Finset.range a, ∑ r : Fin b, g (b * t + r.val) = ∑ q : Fin (a * b), g q.val :=
  calc ∑ t ∈ Finset.range a, ∑ r : Fin b, g (b * t + r.val)
      = ∑ t : Fin a, ∑ r : Fin b, g (b * t.val + r.val) :=
        (Fin.sum_univ_eq_sum_range (fun t => ∑ r : Fin b, g (b * t + r.val)) a).symm
    _ = ∑ p : Fin a × Fin b, g (b * p.1.val + p.2.val) :=
        (Fintype.sum_prod_type' (fun (t : Fin a) (r : Fin b) => g (b * t.val + r.val))).symm
    _ = ∑ q : Fin (a * b), g q.val :=
        Fintype.sum_equiv finProdFinEquiv _ _ fun p =>
          congrArg g (by rw [finProdFinEquiv_apply_val]; exact Nat.add_comm _ _)

/-- Scaling a square is scaling one factor and then multiplying by the other: `c · (d · d) = (c · d) · d`. -/
theorem scale_sq (c d : EReal) : c * (d * d) = c * d * d := (mul_assoc c d d).symm

end Cert.LibBlockSum
-- ==== Proof.LossSpec.lean ====
/-
  The loss both programs compute, as a function of the two argument arrays over the extended reals.

  A row's squared distance is the sum over its 256 columns of the squared differences.  Its penalty is a
  function of that one number `s`: with the deviation `d = √s − cutoff`, the penalty is `d·d` where `d > 0`
  and `pressure · (d·d)` elsewhere.  The loss is the sum of the 262144 rows' penalties divided by the number
  of rows.  The three float literals (cutoff, pressure, row count) and the zero the comparison is made
  against are kept as the bit patterns both programs print: the same word on both sides is never evaluated.
-/
import proofs.«104738_j25297357373517_1_alg».proof.Proof.LibBlockSum
import Idealize.ShloMosaic.PureOps.Ideal
import Idealize.ShloMosaic.PureOps.Ideal.Laws
import Idealize.ShloMosaic.Lib.ValueIdx

noncomputable section

namespace Cert.LossSpec

open Idealize.ShloMosaic Idealize.ShloMosaic.ValueIdx

/-- The squared distance of two rows of 256 entries. -/
def sqDist (u v : Fin 256 → EReal) : EReal := ∑ k : Fin 256, (u k - v k) * (u k - v k)

/-- The deviation of a row from the cutoff, from its squared distance. -/
def deviation (s : EReal) : EReal := Ideal.sqrt s - Ideal.ofBits .f32 0x3DCCCCCD#32

/-- The penalty of a deviation: its square above the cutoff, the pressure times its square elsewhere. -/
def penaltyOf (d : EReal) : EReal :=
  Scalar.select (Ideal.cmp .ogt d (Ideal.ofBits .f32 0x00000000#32)) (d * d) (Ideal.ofBits .f32 0x41200000#32 * (d * d))

/-- The penalty of a row, from its squared distance. -/
def penalty (s : EReal) : EReal := penaltyOf (deviation s)

/-- Row `p` of the arrays' penalty, as a function of a natural number (zero past the last row). -/
def rowPenalty (x y : (⟨2, ![262144, 256]⟩ : Shape).Idx → EReal) (p : ℕ) : EReal :=
  if h : p < 262144 then penalty (sqDist (fun k => x (ix2 ⟨p, h⟩ k)) (fun k => y (ix2 ⟨p, h⟩ k))) else 0

/-- The loss: the mean of the rows' penalties. -/
def meanPenalty (x y : (⟨2, ![262144, 256]⟩ : Shape).Idx → EReal) : EReal :=
  Ideal.div (∑ q : Fin 262144, rowPenalty x y q.val) (Ideal.ofBits .f32 0x48800000#32)

end Cert.LossSpec

end
-- ==== Proof.BlockPenalty.lean ====
/-
  The body's arithmetic, read at an index over the extended reals.

  The accumulate step adds to the total it is given the sum, over the block's 4096 rows, of each row's
  penalty: the row's 256 squared differences are summed along the lanes, the square root and the cutoff
  give the deviation, the comparison selects between the square and the scaled square, and the column of
  4096 penalties is summed along the rows.  The reset stores zero, and the final step divides by the row
  count.  The only non-pointwise steps are the two sums and the two reshapes between a vector and a
  one-column (or one-cell) matrix, each read here at explicit coordinates.
-/
import proofs.«104738_j25297357373517_1_alg».proof.Proof.Gen.KernelIdeal.Skeleton
import proofs.«104738_j25297357373517_1_alg».proof.Proof.LossSpec
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Loss

open Cert.KernelIdeal Cert.KernelIdeal.Gen Cert.LossSpec

/-- A vector of 4096 entries viewed as one column: entry (r, 0) is entry r. -/
theorem column_apply {α : Type} (v : S4096.Idx → α) (h : S4096.ShapeCasts S4096x1) (r : Fin 4096) (z : Fin 1) :
    shapeCast S4096x1 v h (ix2 r z) = v (ix1 r) := by
  refine shapeCast_apply v h (ix2 r z) (ix1 r) ?_
  rw [Shape.rowMajor_val_one, Shape.rowMajor_val_two]
  have : z.val = 0 := by omega
  show r.val = r.val * 1 + z.val
  omega

/-- A vector of one entry viewed as a 1×1 matrix: its one cell is that entry. -/
theorem cell_apply {α : Type} (v : S1.Idx → α) (h : S1.ShapeCasts S1x1) (j : S1x1.Idx) :
    shapeCast S1x1 v h j = v (ix1 0) := by
  refine shapeCast_apply v h j (ix1 0) ?_
  rw [Shape.rowMajor_val_one, Shape.rowMajor_val_two]
  have h0 : (j 0).val < 1 := (j 0).isLt
  have h1 : (j 1).val < 1 := (j 1).isLt
  show (0 : ℕ) = (j 0).val * 1 + (j 1).val
  omega

/-- The sum along the 256 lanes, at row r. -/
theorem laneSum_apply (src : FVec Ideal S4096x256 .f32) (h : S4096x256.Reduces [1] S4096) (r : Fin 4096) :
    multiReduction .add [1] S4096 src 0x00000000#32 h (.inl rfl) rfl (ix1 r) = ∑ k : Fin 256, src (ix2 r k) := by
  refine (Ideal.multiReduction_add_single src 0x00000000#32 h (.inl rfl) rfl (ix1 r)).trans ?_
  show ∑ k : Fin 256, src (h.lift (ix1 r) k) = _
  refine Finset.sum_congr rfl fun k _ => congrArg src (funext fun a => Fin.ext ?_)
  match a with
  | ⟨0, _⟩ => rfl
  | ⟨1, _⟩ => rfl

/-- The sum along the 4096 rows of a one-column matrix. -/
theorem rowSum_apply (src : FVec Ideal S4096x1 .f32) (h : S4096x1.Reduces [0] S1) :
    multiReduction .add [0] S1 src 0x00000000#32 h (.inl rfl) rfl (ix1 0) = ∑ r : Fin 4096, src (ix2 r 0) := by
  refine (Ideal.multiReduction_add_single src 0x00000000#32 h (.inl rfl) rfl (ix1 0)).trans ?_
  show ∑ r : Fin 4096, src (h.lift (ix1 0) r) = _
  refine Finset.sum_congr rfl fun r _ => congrArg src (funext fun a => Fin.ext ?_)
  match a with
  | ⟨0, _⟩ => rfl
  | ⟨1, _⟩ => rfl

/-- One row of a block: its 256 entries. -/
abbrev rowOf (x : FVec Ideal S4096x256 .f32) (r : Fin 4096) : Fin 256 → EReal := fun k => x (ix2 r k)

/-- The block penalty: the sum over the block's rows of the row's penalty. -/
def blockPenalty (x0 x1 : FVec Ideal S4096x256 .f32) : EReal :=
  ∑ r : Fin 4096, penalty (sqDist (rowOf x0 r) (rowOf x1 r))

/-- The lane sum of the squared differences, viewed as a column, at row r is the row's squared distance. -/
theorem sqDist_apply (x0 x1 : FVec Ideal S4096x256 .f32) (h : S4096x256.Reduces [1] S4096) (hc : S4096.ShapeCasts S4096x1)
    (r : Fin 4096) (z : Fin 1) :
    shapeCast S4096x1 (multiReduction .add [1] S4096 (mulf (subf x0 x1) (subf x0 x1)) 0x00000000#32 h (.inl rfl) rfl) hc (ix2 r z)
      = sqDist (rowOf x0 r) (rowOf x1 r) :=
  (column_apply _ hc r z).trans (laneSum_apply _ h r)

/-- THE ACCUMULATE STEP at its one cell: the total it was given plus the block penalty. -/
theorem accumulate_apply (x0 x1 : FVec Ideal S4096x256 .f32) (a : FVec Ideal S1x1 .f32) (j : S1x1.Idx) :
    k0_pay2 (F := Ideal) x0 x1 a j = a j + blockPenalty x0 x1 := by
  unfold k0_pay2
  refine (congrFun (shapeCast_self _ _) j).trans ?_
  refine congrArg (a j + ·) ?_
  refine (cell_apply _ _ j).trans ?_
  refine (rowSum_apply _ _).trans ?_
  refine Finset.sum_congr rfl fun r _ => ?_
  exact congrArg penalty (sqDist_apply x0 x1 _ _ r 0)

/-- The reset stores the zero pattern. -/
theorem reset_apply (j : S1x1.Idx) : k0_pay1 (F := Ideal) j = Ideal.ofBits .f32 0x00000000#32 := by
  unfold k0_pay1
  exact congrFun (shapeCast_self _ _) j

/-- The final step divides its one cell by the row count. -/
theorem mean_apply (v : FVec Ideal S1x1 .f32) (j : S1x1.Idx) :
    k0_pay3 (F := Ideal) v j = Ideal.div (v j) (Ideal.ofBits .f32 0x48800000#32) := rfl

end Cert.KernelIdeal.Loss

end
-- ==== Proof.BlockRows.lean ====
/-
  Which rows of the arguments a grid point sees.

  Both input windows cut their array into 64 blocks of 4096 whole rows, block `t` at point `t`: the block
  index along the rows is the point's number and along the columns it is zero.  So entry (r, k) of the
  block a point reads is entry (4096·t + r, k) of the argument array as the program was launched with it
  (nothing runs before the region, so the region finds the arguments untouched).
-/
import proofs.«104738_j25297357373517_1_alg».proof.Proof.Gen.KernelIdeal.Frame.Runs
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Loss

open Cert.KernelIdeal Cert.KernelIdeal.Gen

variable {F : FTy → Type} [FloatOps F]
variable (m : (ℓ : Loc nD τ sig) → Buf (Elt F) ℓ)

/-- Both input windows' block index at point `t` is (t, 0), decided once over the grid. -/
theorem block_index : ∀ t : Fin cfg0.N,
    (win0_0.index t 0 = t.val ∧ win0_0.index t 1 = 0) ∧ (win0_1.index t 0 = t.val ∧ win0_1.index t 1 = 0) :=
  (by decide +kernel : ∀ t : Fin grid0.N,
    (win0_0.index t 0 = t.val ∧ win0_0.index t 1 = 0) ∧ (win0_1.index t 0 = t.val ∧ win0_1.index t 1 = 0))

/-- Entry (r, k) of the first argument's block at point `t` is entry (4096·t + r, k) of the first argument. -/
theorem block0_apply (c : Dev nD) (t : Fin cfg0.N) (r : Fin 4096) (k : Fin 256) (h : 4096 * t.val + r.val < 262144) :
    (iblk m c 0 t : Vec F S4096x256 .f32) (ix2 r k)
      = m ((c : Thread nD τ).loc main_arg0) (ix2 ⟨4096 * t.val + r.val, h⟩ k) := by
  unfold iblk
  rw [View.read_apply]
  show V m c main_arg0 (((cfg0.win 0).blk t).view.emb (ix2 r k)) = V m c main_arg0 (ix2 ⟨4096 * t.val + r.val, h⟩ k)
  refine congrArg (V m c main_arg0) (funext fun a => Fin.ext ?_)
  match a with
  | ⟨0, _⟩ =>
    show win0_0.index t 0 * 4096 + 1 * r.val = 4096 * t.val + r.val
    rw [(block_index t).1.1]; omega
  | ⟨1, _⟩ =>
    show win0_0.index t 1 * 256 + 1 * k.val = k.val
    rw [(block_index t).1.2]; omega

/-- The same for the second argument. -/
theorem block1_apply (c : Dev nD) (t : Fin cfg0.N) (r : Fin 4096) (k : Fin 256) (h : 4096 * t.val + r.val < 262144) :
    (iblk m c 1 t : Vec F S4096x256 .f32) (ix2 r k)
      = m ((c : Thread nD τ).loc main_arg1) (ix2 ⟨4096 * t.val + r.val, h⟩ k) := by
  unfold iblk
  rw [View.read_apply]
  show V m c main_arg1 (((cfg0.win 1).blk t).view.emb (ix2 r k)) = V m c main_arg1 (ix2 ⟨4096 * t.val + r.val, h⟩ k)
  refine congrArg (V m c main_arg1) (funext fun a => Fin.ext ?_)
  match a with
  | ⟨0, _⟩ =>
    show win0_1.index t 0 * 4096 + 1 * r.val = 4096 * t.val + r.val
    rw [(block_index t).2.1]; omega
  | ⟨1, _⟩ =>
    show win0_1.index t 1 * 256 + 1 * k.val = k.val
    rw [(block_index t).2.2]; omega

end Cert.KernelIdeal.Loss

end
-- ==== Proof.KernelLoss.lean ====
/-
  The kernel's result over the extended reals is the loss of its arguments.

  At point `t` the block penalty the body adds is the sum of the penalties of rows `4096·t … 4096·t + 4095`
  of the argument arrays.  The total after point `n` starts from the zero the first point stores, so it is
  the sum of the block penalties of points `0 … n`; after the last point that is the sum over all 64 blocks,
  which is the sum over all 262144 rows.  The output is that sum divided by the row count, and the
  program's scalar result is the output's one cell.
-/
import proofs.«104738_j25297357373517_1_alg».proof.Proof.OutputArray
import proofs.«104738_j25297357373517_1_alg».proof.Proof.BlockPenalty
import proofs.«104738_j25297357373517_1_alg».proof.Proof.BlockRows

noncomputable section

open Idealize.ShloMosaic Idealize.ShloMosaic.TcCoe Idealize.SL.Sem Idealize.ShloMosaic.ValueIdx

namespace Cert.KernelIdeal.Loss

open Cert.KernelIdeal Cert.KernelIdeal.Gen Cert.LossSpec Cert.LibBlockSum

variable (m : (ℓ : Loc nD τ sig) → Buf (Elt Ideal) ℓ)

/-- The two argument arrays as the program was launched with them. -/
abbrev argX (c : Dev nD) : (⟨2, ![262144, 256]⟩ : Shape).Idx → EReal := m ((c : Thread nD τ).loc main_arg0)
abbrev argY (c : Dev nD) : (⟨2, ![262144, 256]⟩ : Shape).Idx → EReal := m ((c : Thread nD τ).loc main_arg1)

/-- The penalties of the 4096 rows that block `t` holds, summed. -/
def pointPenalty (c : Dev nD) (t : ℕ) : EReal := ∑ r : Fin 4096, rowPenalty (argX m c) (argY m c) (4096 * t + r.val)

/-- The block penalty of the blocks read at point `t` is that sum over the arguments' rows. -/
theorem blockPenalty_eq (c : Dev nD) (t : Fin cfg0.N) :
    blockPenalty (iblk m c 0 t) (iblk m c 1 t) = pointPenalty m c t.val := by
  have hN : cfg0.N = 64 := N_0
  unfold blockPenalty pointPenalty
  refine Finset.sum_congr rfl fun r _ => ?_
  have h : 4096 * t.val + r.val < 262144 := by have := t.isLt; have := r.isLt; omega
  unfold rowPenalty
  rw [dif_pos h]
  refine congrArg penalty ?_
  exact congrArg₂ sqDist (funext fun k => block0_apply m c t r k h) (funext fun k => block1_apply m c t r k h)

/-- The total after point `n`, at its one cell, is the sum of the block penalties of points `0 … n`. -/
theorem total_apply (c : Dev nD) : ∀ (n : ℕ) (h : n < cfg0.N) (j : S1x1.Idx),
    total m c n h j = ∑ t ∈ Finset.range (n + 1), pointPenalty m c t
  | 0, h, j => by
    refine (accumulate_apply (iblk m c 0 ⟨0, h⟩) (iblk m c 1 ⟨0, h⟩) k0_pay1 j).trans ?_
    rw [reset_apply, Ideal.ofBits_zero_f32, zero_add, Finset.sum_range_one]
    exact blockPenalty_eq m c ⟨0, h⟩
  | n + 1, h, j => by
    refine (accumulate_apply (iblk m c 0 ⟨n + 1, h⟩) (iblk m c 1 ⟨n + 1, h⟩)
      (total m c n (Nat.lt_of_succ_lt h)) j).trans ?_
    rw [total_apply c n (Nat.lt_of_succ_lt h) j, Finset.sum_range_succ _ (n + 1)]
    exact congrArg (_ + ·) (blockPenalty_eq m c ⟨n + 1, h⟩)

/-- After the last point the total is the sum of all the rows' penalties. -/
theorem total_last (c : Dev nD) (j : S1x1.Idx) :
    total m c lastPt.val lastPt.isLt j = ∑ q : Fin 262144, rowPenalty (argX m c) (argY m c) q.val := by
  rw [total_apply m c lastPt.val lastPt.isLt j]
  exact sum_blocks 64 4096 (rowPenalty (argX m c) (argY m c))

/-- The output's one cell is the loss. -/
theorem meanBlock_apply (c : Dev nD) (j : S1x1.Idx) : meanBlock m c j = meanPenalty (argX m c) (argY m c) := by
  refine (mean_apply (total m c lastPt.val lastPt.isLt) j).trans ?_
  rw [total_last m c j]
  rfl

/-- The program's scalar result is the loss. -/
theorem result_eq (c : Dev nD) :
    shapeCast S_ (meanBlock m c) shapeCasts_S1x1_S_ = fun _ => meanPenalty (argX m c) (argY m c) := by
  funext i
  refine (shapeCast_apply (meanBlock m c) shapeCasts_S1x1_S_ i (ix2 0 0) ?_).trans (meanBlock_apply m c (ix2 0 0))
  show (S1x1.rowMajor (ix2 0 0)).val = (S_.rowMajor i).val
  rw [Shape.rowMajor_val_two]
  have h0 := (S_.rowMajor i).isLt
  have h1 : S_.numel = 1 := by decide
  show 0 * 1 + 0 = (S_.rowMajor i).val
  omega

end Cert.KernelIdeal.Loss

end
-- ==== Proof.ReferenceLoss.lean ====
/-
  The reference's result over the extended reals is the loss of its arguments.

  Read one operation at a time, the reference computes for every row the sum of the squared differences
  along the 256 columns (from a zero initial value), its square root, the deviation from the cutoff, and
  selects between the deviation's square and `(pressure · d) · d`; it then sums the 262144 penalties (from
  zero) and divides by the row count.  That is the loss of the specification once `(pressure · d) · d` is
  regrouped as `pressure · (d · d)` and the two zero initial values are dropped.
-/
import proofs.«104738_j25297357373517_1_alg».proof.Proof.Gen.ReferenceIdeal.Read
import proofs.«104738_j25297357373517_1_alg».proof.Proof.LossSpec

noncomputable section

open Idealize.ShloMosaic Idealize.ShloMosaic.ValueIdx

namespace Cert.ReferenceIdeal.Loss

open Cert.ReferenceIdeal Cert.ReferenceIdeal.Gen Cert.ReferenceIdeal.Read Cert.LossSpec Cert.LibBlockSum

/-- The entry the column sum reads at row `q`, column `k`. -/
theorem lane_index (q : Fin 262144) (k : Fin 256) : idx_main_v2 (ix1 q) k = ix2 q k :=
  funext fun a => Fin.ext (by match a with | ⟨0, _⟩ => rfl | ⟨1, _⟩ => rfl)

/-- The rows of the arrays, as the one-axis index type the reference's row vector uses. -/
def rowEquiv : S262144.Idx ≃ Fin 262144 where
  toFun j := j 0
  invFun := ix1
  left_inv j := (eq_ix1 j).symm
  right_inv _ := rfl

/-- The selected penalty of row `q` is the specification's. -/
theorem row_apply (x y : (⟨S262144x256, .f32⟩ : BufTy).Contents (Elt Ideal)) (q : Fin 262144) :
    val_main_v12 (F := Ideal) x y (ix1 q) = rowPenalty x y q.val := by
  rw [val_main_v12_apply, val_main_v7_apply, val_main_v8_apply, val_main_v11_apply, val_main_v10_apply,
    val_main_v9_apply, val_main_v6_apply, val_main_v5_apply, val_main_v4_apply, val_main_v3_apply, val_main_v2_apply]
  unfold rowPenalty
  rw [dif_pos q.isLt]
  unfold penalty penaltyOf deviation sqDist
  rw [scale_sq]
  simp only [val_main_v1_apply, val_main_v0_apply, val_main_cst_apply, val_main_cst_0_apply, val_main_cst_1_apply,
    val_main_cst_2_apply, lane_index, Ideal.ofBits_def, Ideal.subf_def, Ideal.mulf_def, Ideal.hostUnary_sqrt_def,
    Ideal.cmpf_def, Ideal.ofBits_zero_f32, zero_add]

/-- The reference's result is the loss. -/
theorem loss_eq (x y : (⟨S262144x256, .f32⟩ : BufTy).Contents (Elt Ideal)) :
    val_main_v14 (F := Ideal) x y = fun _ => meanPenalty x y := by
  funext i
  rw [val_main_v14_apply, val_main_v13_apply, val_main_cst_4_apply, val_main_cst_3_apply]
  simp only [Ideal.hostDivf_def, Ideal.ofBits_def, Ideal.ofBits_zero_f32, zero_add]
  unfold meanPenalty
  have rows : ∑ j : S262144.Idx, val_main_v12 (F := Ideal) x y j = ∑ q : Fin 262144, rowPenalty x y q.val :=
    Fintype.sum_equiv rowEquiv (fun j => val_main_v12 (F := Ideal) x y j) (fun q => rowPenalty x y q.val) fun j =>
      (congrArg (val_main_v12 (F := Ideal) x y) (eq_ix1 j)).trans (row_apply x y (j 0))
  rw [rows]

end Cert.ReferenceIdeal.Loss

end
-- ==== Proof.lean ====
/-
  The certificate of the mean-penalty loss kernel against its reference.

  The kernel streams the two [262144, 256] arrays through 64 blocks of 4096 rows, adds each block's summed
  row penalties into a 1×1 running total kept across the grid, and after the last block divides the total by
  the number of rows; the reference computes every row's penalty at once and takes their mean.  A row's
  penalty depends on the row's squared distance `s` only: with `d = √s − cutoff` it is `d·d` where `d > 0` and
  `pressure·(d·d)` elsewhere (the reference groups the latter as `(pressure·d)·d`).

  Over the extended reals the two results are one number (`Cert.LossSpec.meanPenalty` of the arguments)
  by two laws that need no finiteness: multiplication is associative, and a sum may be taken block by block.
  So the precondition is never opened.  The three frames are the generated frame runs (the reference's is its
  generated run with the result dropped), and the kernel's idealization rewrote nothing.
-/
import proofs.«104738_j25297357373517_1_alg».proof.Defs
import proofs.«104738_j25297357373517_1_alg».proof.Proof.Gen.Kernel
import proofs.«104738_j25297357373517_1_alg».proof.Proof.Gen.Kernel.Skeleton
import proofs.«104738_j25297357373517_1_alg».proof.Proof.Gen.Kernel.Launch
import proofs.«104738_j25297357373517_1_alg».proof.Proof.Gen.Kernel.Points
import proofs.«104738_j25297357373517_1_alg».proof.Proof.Gen.Kernel.Frame
import proofs.«104738_j25297357373517_1_alg».proof.Proof.Gen.KernelIdeal
import proofs.«104738_j25297357373517_1_alg».proof.Proof.Gen.KernelIdeal.Skeleton
import proofs.«104738_j25297357373517_1_alg».proof.Proof.Gen.KernelIdeal.Launch
import proofs.«104738_j25297357373517_1_alg».proof.Proof.Gen.KernelIdeal.Points
import proofs.«104738_j25297357373517_1_alg».proof.Proof.Gen.KernelIdeal.Frame
import proofs.«104738_j25297357373517_1_alg».proof.Proof.Gen.ReferenceIdeal
import proofs.«104738_j25297357373517_1_alg».proof.Proof.Gen.ReferenceIdeal.Run
import proofs.«104738_j25297357373517_1_alg».proof.Proof.Gen.ReferenceIdeal.Read
import proofs.«104738_j25297357373517_1_alg».proof.Proof.Gen.Pre_finite_inputs
import proofs.«104738_j25297357373517_1_alg».proof.Proof.KernelLoss
import proofs.«104738_j25297357373517_1_alg».proof.Proof.ReferenceLoss
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its generated run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories that agree on the two arguments, the idealized kernel ends with its result at the loss of its
    arguments, and the idealized reference with its result at the loss of its own, which are the same arrays. -/
theorem algebraic : Cert.algebraic_KernelIdeal_ReferenceIdeal := by
  intro m ρ m' ρ' _ hagree
  refine ⟨fun c _ => Cert.LossSpec.meanPenalty (Cert.KernelIdeal.Loss.argX m c) (Cert.KernelIdeal.Loss.argY m c), ?_, ?_⟩
  · exact (θ_run Cert.KernelIdeal.defs _ _).mono
      (fun _ h c => ⟨(h c).1.trans (Cert.KernelIdeal.Loss.result_eq m c), (h c).2⟩)
      (Cert.KernelIdeal.Loss.run (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v14_eq, Cert.ReferenceIdeal.Loss.loss_eq, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
